-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S8x64x256 : Shape := ⟨3, ![8, 64, 256]⟩
abbrev S512x1024 : Shape := ⟨2, ![512, 1024]⟩
abbrev S1024 : Shape := ⟨1, ![1024]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x256 .f32) (main_arg1 : FVec F S8x64x256 .f32) (main_arg2 : FVec F S512x1024 .f32) (main_arg3 : FVec F S1024 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x256 : Shape := ⟨3, ![8, 256, 256]⟩
abbrev S8x64x256 : Shape := ⟨3, ![8, 64, 256]⟩
abbrev S512x1024 : Shape := ⟨2, ![512, 1024]⟩
abbrev S1024 : Shape := ⟨1, ![1024]⟩
abbrev S256x1024 : Shape := ⟨2, ![256, 1024]⟩
abbrev S1x1024 : Shape := ⟨2, ![1, 1024]⟩
abbrev S8x256x64x1024 : Shape := ⟨4, ![8, 256, 64, 1024]⟩
abbrev S1x32x256 : Shape := ⟨3, ![1, 32, 256]⟩
abbrev S1x64x256 : Shape := ⟨3, ![1, 64, 256]⟩
abbrev S1x32x64x1024 : Shape := ⟨4, ![1, 32, 64, 1024]⟩
abbrev S64x1024 : Shape := ⟨2, ![64, 1024]⟩
abbrev S64x256 : Shape := ⟨2, ![64, 256]⟩
abbrev S32x256 : Shape := ⟨2, ![32, 256]⟩
abbrev S32x1024 : Shape := ⟨2, ![32, 1024]⟩
abbrev S16x1024 : Shape := ⟨2, ![16, 1024]⟩
abbrev S32x1x1024 : Shape := ⟨3, ![32, 1, 1024]⟩
abbrev S1x16x1024 : Shape := ⟨3, ![1, 16, 1024]⟩
abbrev S32x16x1024 : Shape := ⟨3, ![32, 16, 1024]⟩
abbrev S1x1x1024 : Shape := ⟨3, ![1, 1, 1024]⟩
abbrev S32x16 : Shape := ⟨2, ![32, 16]⟩
abbrev S32x16x1 : Shape := ⟨3, ![32, 16, 1]⟩
abbrev S1x32x16x1024 : Shape := ⟨4, ![1, 32, 16, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x1024, .f32⟩
  | .hbm, ⟨3, _⟩ => ⟨S1024, .f32⟩
  | .hbm, ⟨4, _⟩ => ⟨S256x1024, .f32⟩
  | .hbm, ⟨5, _⟩ => ⟨S256x1024, .bf16⟩
  | .hbm, ⟨6, _⟩ => ⟨S256x1024, .f32⟩
  | .hbm, ⟨7, _⟩ => ⟨S256x1024, .bf16⟩
  | .hbm, ⟨8, _⟩ => ⟨S1x1024, .f32⟩
  | .hbm, ⟨9, _⟩ => ⟨S8x256x64x1024, .f32⟩
  | .local _ .vmem, ⟨0, _⟩ => ⟨S1x32x256, .f32⟩
  | .local _ .vmem, ⟨1, _⟩ => ⟨S1x32x256, .f32⟩
  | .local _ .vmem, ⟨2, _⟩ => ⟨S1x64x256, .f32⟩
  | .local _ .vmem, ⟨3, _⟩ => ⟨S1x64x256, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x32x64x1024, .f32⟩
  | .local _ .vmem, ⟨8, _⟩ => ⟨S1x32x64x1024, .f32⟩
  | .local _ .vmem, ⟨9, _⟩ => ⟨S64x1024, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_7 : BitVec 32 := 0#32
  let c4_i32 : BitVec 32 := 4#32
  let v11 : BitVec 32 := Scalar.addi c0_i32_7 c4_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg9 : BitVec 32 := Scf.iv c0_i32_7 c1_i32 k0_t1
  let c16_i32 : BitVec 32 := 16#32
  let v12 : BitVec 32 := Scalar.muli arg9 c16_i32
  v12
def k0_off1 (k0_t1 : Fin k0_t1_loop.trips) : Fin 2 → Nat :=
  let c0_i32_7 : BitVec 32 := 0#32
  let c1_i32 : BitVec 32 := 1#32
  let arg9 : BitVec 32 := Scf.iv c0_i32_7 c1_i32 k0_t1
  let c16_i32 : BitVec 32 := 16#32
  let v12 : BitVec 32 := Scalar.muli arg9 c16_i32
  let v13 : BitVec 32 := v12
  let v14 : Index := Scalar.indexCast v13
  let c0_9 : Index := 0#32
  ![v14.toNat, 0]
def k0_off2 (k0_t1 : Fin k0_t1_loop.trips) : Fin 4 → Nat :=
  let c0_12 : Index := 0#32
  let c0_13 : Index := 0#32
  let c0_i32_7 : BitVec 32 := 0#32
  let c1_i32 : BitVec 32 := 1#32
  let arg9 : BitVec 32 := Scf.iv c0_i32_7 c1_i32 k0_t1
  let c16_i32 : BitVec 32 := 16#32
  let v12 : BitVec 32 := Scalar.muli arg9 c16_i32
  let v13 : BitVec 32 := v12
  let v34 : Index := Scalar.indexCast v13
  let c0_14 : Index := 0#32
  ![0, 0, v34.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S512x1024_S256x1024_0_0 : S512x1024.Slices ![0, 0] S256x1024
  bitsLt_bf16_f32 : FTy.bits .bf16 < FTy.bits .f32
  slices_S512x1024_S256x1024_256_0 : S512x1024.Slices ![256, 0] S256x1024
  shapeCasts_S1024_S1x1024 : S1024.ShapeCasts S1x1024
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S16x1024 : 0 < S16x1024.numel
  shapeCasts_S32x1024_S32x1x1024 : S32x1024.ShapeCasts S32x1x1024
  shapeCasts_S16x1024_S1x16x1024 : S16x1024.ShapeCasts S1x16x1024
  broadcasts_S32x1x1024_S32x16x1024 : S32x1x1024.Broadcasts S32x16x1024
  broadcasts_S1x16x1024_S32x16x1024 : S1x16x1024.Broadcasts S32x16x1024
  shapeCasts_S1x1024_S1x1x1024 : S1x1024.ShapeCasts S1x1x1024
  broadcasts_S1x1x1024_S32x16x1024 : S1x1x1024.Broadcasts S32x16x1024
  reduces_S32x16x1024_S32x16 : S32x16x1024.Reduces [2] S32x16
  shapeCasts_S32x16_S32x16x1 : S32x16.ShapeCasts S32x16x1
  broadcasts_S32x16x1_S32x16x1024 : S32x16x1.Broadcasts S32x16x1024
  h_S1x32x16x1024 : 0 < S1x32x16x1024.numel
  shapeCasts_S1x32x16x1024_S32x16x1024 : S1x32x16x1024.ShapeCasts S32x16x1024
  shapeCasts_S32x16x1024_S1x32x16x1024 : S32x16x1024.ShapeCasts S1x32x16x1024
  dot_S64x256_S256x1024_S64x1024_1_0_0_1_n_n_wf : DotDims.WF S64x256 S256x1024 S64x1024 [1] [0] [0] [1] [] []
  dot_S32x256_S256x1024_S32x1024_1_0_0_1_n_n_wf : DotDims.WF S32x256 S256x1024 S32x1024 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x1024.size a ≤ S64x1024.size a
  k0_off2_inb : ∀ k0_t1 : Fin k0_t1_loop.trips, ∀ a, (k0_off2 k0_t1) a + S1x32x16x1024.size a ≤ S1x32x64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S8x256x256.size a
  hwx0_0 : ∀ i : grid0.Coords, EltTy.bits .f32 = 32 ∨ (Rect.block (s := S8x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x64x1024.size a ≤ S8x256x64x1024.size a
  hwx0_5 : ∀ i : grid0.Coords, EltTy.bits .f32 = 32 ∨ (Rect.block (s := S8x256x64x1024) S1x32x64x1024.size (cc0_transform_5 i) (hinb0_5 i)).WholeWords (EltTy.packing .f32)

variable [Facts₀]

def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x32x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S8x64x256 : Shape := ⟨3, ![8, 64, 256]⟩
abbrev S512x1024 : Shape := ⟨2, ![512, 1024]⟩
abbrev S1024 : Shape := ⟨1, ![1024]⟩
abbrev S256x1024 : Shape := ⟨2, ![256, 1024]⟩
abbrev S8x256x1024 : Shape := ⟨3, ![8, 256, 1024]⟩
abbrev S8x64x1024 : Shape := ⟨3, ![8, 64, 1024]⟩
abbrev S8x256x1x1024 : Shape := ⟨4, ![8, 256, 1, 1024]⟩
abbrev S8x1x64x1024 : Shape := ⟨4, ![8, 1, 64, 1024]⟩
abbrev S8x256x64x1024 : Shape := ⟨4, ![8, 256, 64, 1024]⟩
abbrev S1x1x1x1024 : Shape := ⟨4, ![1, 1, 1, 1024]⟩
abbrev S_ : Shape := ⟨0, ![]⟩
abbrev S8x256x64 : Shape := ⟨3, ![8, 256, 64]⟩
abbrev S8x256x64x1 : Shape := ⟨4, ![8, 256, 64, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x1024, .f32⟩
  | .hbm, ⟨3, _⟩ => ⟨S1024, .f32⟩
  | .hbm, ⟨4, _⟩ => ⟨S256x1024, .f32⟩
  | .hbm, ⟨5, _⟩ => ⟨S8x256x1024, .f32⟩
  | .hbm, ⟨6, _⟩ => ⟨S256x1024, .f32⟩
  | .hbm, ⟨7, _⟩ => ⟨S8x64x1024, .f32⟩
  | .hbm, ⟨8, _⟩ => ⟨S8x256x1x1024, .f32⟩
  | .hbm, ⟨9, _⟩ => ⟨S8x1x64x1024, .f32⟩
  | .hbm, ⟨10, _⟩ => ⟨S8x256x64x1024, .f32⟩
  | .hbm, ⟨11, _⟩ => ⟨S8x256x64x1024, .f32⟩
  | .hbm, ⟨12, _⟩ => ⟨S8x256x64x1024, .f32⟩
  | .hbm, ⟨13, _⟩ => ⟨S1x1x1x1024, .f32⟩
  | .hbm, ⟨14, _⟩ => ⟨S8x256x64x1024, .f32⟩
  | .hbm, ⟨15, _⟩ => ⟨S8x256x64x1024, .f32⟩
  | .hbm, ⟨16, _⟩ => ⟨S_, .f32⟩
  | .hbm, ⟨17, _⟩ => ⟨S8x256x64, .f32⟩
  | .hbm, ⟨18, _⟩ => ⟨S_, .f32⟩
  | .hbm, ⟨19, _⟩ => ⟨S8x256x64, .f32⟩
  | .hbm, ⟨20, _⟩ => ⟨S8x256x64, .f32⟩
  | .hbm, ⟨21, _⟩ => ⟨S8x256x64x1, .f32⟩
  | .hbm, ⟨22, _⟩ => ⟨S8x256x64x1024, .f32⟩
  | .hbm, ⟨23, _⟩ => ⟨S8x256x64x1024, .f32⟩
  | .hbm, ⟨24, _⟩ => ⟨S8x256x64x1024, .f32⟩
  | .hbm, ⟨25, _⟩ => ⟨S_, .f32⟩
  | .hbm, ⟨26, _⟩ => ⟨S8x256x64, .f32⟩
  | .hbm, ⟨27, _⟩ => ⟨S8x256x64x1, .f32⟩
  | .hbm, ⟨28, _⟩ => ⟨S8x256x64x1, .f32⟩
  | .hbm, ⟨29, _⟩ => ⟨S8x256x64x1024, .f32⟩
  | .hbm, ⟨30, _⟩ => ⟨S8x256x64x1024, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v12 : Ref sig .tc := ⟨.hbm, 30, rfl⟩

abbrev nD : Nat := 1
abbrev τ : Topo := Topo.v7x

variable {F : FTy → Type} [FloatOps F]

class Facts₀ : Prop where
  slices_S512x1024_S256x1024_0_0 : S512x1024.Slices ![0, 0] S256x1024
  slices_S512x1024_S256x1024_256_0 : S512x1024.Slices ![256, 0] S256x1024
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  reducesTo_S8x256x64x1024_S8x256x64_d3 : S8x256x64x1024.ReducesTo [3] S8x256x64
  h_S_ : 0 < S_.numel
  bcast_S_S8x256x64 : S_.BroadcastsInDim S8x256x64 (![] : Fin 0 → Fin S8x256x64.rank)
  bcast_S8x256x64_S8x256x64x1_0_1_2 : S8x256x64.BroadcastsInDim S8x256x64x1 (![0, 1, 2] : Fin 3 → Fin S8x256x64x1.rank)
  bcast_S8x256x64x1_S8x256x64x1024_0_1_2_3 : S8x256x64x1.BroadcastsInDim S8x256x64x1024 (![0, 1, 2, 3] : Fin 4 → Fin S8x256x64x1024.rank)
  dot_S8x256x256_S256x1024_S8x256x1024_2_0_01_1_n_n_wf : DotDims.WF S8x256x256 S256x1024 S8x256x1024 [2] [0] [0, 1] [1] [] []
  dot_S8x64x256_S256x1024_S8x64x1024_2_0_01_1_n_n_wf : DotDims.WF S8x64x256 S256x1024 S8x64x1024 [2] [0] [0, 1] [1] [] []

variable [Facts₀]

def dot_S8x256x256_S256x1024_S8x256x1024_2_0_01_1_n_n : DotDims S8x256x256 S256x1024 S8x256x1024 where
  lhsContracting := [2]
  rhsContracting := [0]
  lhsNonContracting := [0, 1]
  rhsNonContracting := [1]
  lhsBatch := []
  rhsBatch := []
  wf := dot_S8x256x256_S256x1024_S8x256x1024_2_0_01_1_n_n_wf
def dot_S8x64x256_S256x1024_S8x64x1024_2_0_01_1_n_n : DotDims S8x64x256 S256x1024 S8x64x1024 where
  lhsContracting := [2]
  rhsContracting := [0]
  lhsNonContracting := [0, 1]
  rhsNonContracting := [1]
  lhsBatch := []
  rhsBatch := []
  wf := dot_S8x64x256_S256x1024_S8x64x1024_2_0_01_1_n_n_wf

class Facts : Prop extends Facts₀ where

variable [Facts]
-- ==== Proof.Spec.lean ====
/-
  The joint network's output, as one function of the four argument arrays.

  For a batch `b`, an encoder step `t`, a decoder step `u` and a vocabulary entry `v` the logit is

      logit b t u v = (∑ₕ enc[b,t,h] · W[h,v]) + (∑ₕ dec[b,u,h] · W[256+h,v]) + bias[v],

  the encoder half of `W` (rows 0..255) contracted with the encoder output and the decoder half
  (rows 256..511) with the decoder output. The result is the log-softmax of each row
  `v ↦ logit b t u v` of 1024 logits, in the shifted form

      out b t u v = (logit b t u v − M) − log (∑ᵥ' exp (logit b t u v' − M)),   M = maxᵥ' logit b t u v',

  with the maximum folded from −∞. Everything is read on the extended reals, where a float is the
  number it denotes and every operation is exact.
-/
import Idealize.ShloMosaic.PureOps.Ideal
import Idealize.ShloMosaic.PureOps.Ideal.Laws
import Idealize.ShloMosaic.Lib.ValueIdx

noncomputable section

namespace Cert.Joint

open Idealize.ShloMosaic Idealize.ShloMosaic.ValueIdx

/-- −∞, as the float word both programs start a row's maximum from. -/
abbrev negInf : EReal := Ideal.ofBits .f32 0xFF800000#32

/-- The maximum of a row of 1024 numbers, folded from −∞. -/
def rowMax (f : Fin 1024 → EReal) : EReal := (Finset.univ : Finset (Fin 1024)).fold max negInf f

/-- The log-softmax of a row of 1024 numbers at entry `v`, in the shifted form: the entry minus the row's
    maximum, minus the logarithm of the sum of the exponentials of the shifted row. -/
def logSoftmaxRow (f : Fin 1024 → EReal) (v : Fin 1024) : EReal :=
  (f v - rowMax f) - Ideal.log (∑ k : Fin 1024, Ideal.exp (f k - rowMax f))

/-- Folding the maximum from −∞ and then taking the maximum with −∞ once more changes nothing:
    the fold is already at least its starting value. -/
theorem max_negInf_rowMax (f : Fin 1024 → EReal) : max negInf (rowMax f) = rowMax f :=
  max_eq_right (Finset.le_fold_max (b := negInf) (f := f) (s := Finset.univ) negInf |>.mpr (Or.inl le_rfl))

/-- Row `h` of the encoder half of the weight matrix (rows 0..255 of 512). -/
abbrev encRow (h : Fin 256) : Fin 512 := ⟨h.val, by have := h.isLt; omega⟩
/-- Row `h` of the decoder half of the weight matrix (rows 256..511 of 512). -/
abbrev decRow (h : Fin 256) : Fin 512 := ⟨256 + h.val, by have := h.isLt; omega⟩

variable (enc : (⟨3, ![8, 256, 256]⟩ : Shape).Idx → EReal) (dec : (⟨3, ![8, 64, 256]⟩ : Shape).Idx → EReal)
  (W : (⟨2, ![512, 1024]⟩ : Shape).Idx → EReal) (bias : (⟨1, ![1024]⟩ : Shape).Idx → EReal)

/-- The encoder projection: step `t` of batch `b` against column `v` of the encoder half of `W`. -/
def encProj (b : Fin 8) (t : Fin 256) (v : Fin 1024) : EReal :=
  ∑ h : Fin 256, enc (ix3 b t h) * W (ix2 (encRow h) v)

/-- The decoder projection: step `u` of batch `b` against column `v` of the decoder half of `W`. -/
def decProj (b : Fin 8) (u : Fin 64) (v : Fin 1024) : EReal :=
  ∑ h : Fin 256, dec (ix3 b u h) * W (ix2 (decRow h) v)

/-- The logit of (batch, encoder step, decoder step, vocabulary entry). -/
def logit (b : Fin 8) (t : Fin 256) (u : Fin 64) (v : Fin 1024) : EReal :=
  (encProj enc W b t v + decProj dec W b u v) + bias (ix1 v)

/-- The output at explicit coordinates: the log-softmax of the row of logits of (b, t, u), at `v`. -/
def outAt (b : Fin 8) (t : Fin 256) (u : Fin 64) (v : Fin 1024) : EReal :=
  logSoftmaxRow (fun v' => logit enc dec W bias b t u v') v

/-- The whole output array [8, 256, 64, 1024] as one function of the four argument arrays. -/
def G : (⟨4, ![8, 256, 64, 1024]⟩ : Shape).Idx → EReal := fun i =>
  outAt enc dec W bias ⟨(i 0).val, (i 0).isLt⟩ ⟨(i 1).val, (i 1).isLt⟩ ⟨(i 2).val, (i 2).isLt⟩ ⟨(i 3).val, (i 3).isLt⟩

theorem G_ix4 (b : Fin 8) (t : Fin 256) (u : Fin 64) (v : Fin 1024) :
    G enc dec W bias (ix4 b t u v) = outAt enc dec W bias b t u v := rfl

end Cert.Joint

end
-- ==== Proof.Payload.lean ====
/-
  The kernel's two stored values, read one entry at a time on the extended reals.

  The first is the decoder projection `dec · (W₁ · 0 + W₂)`, whose entry `(u, v)` is `∑ₕ dec[0,u,h] · W₂[h,v]`. The second
  takes an encoder block, `W₁`, the bias and a 16-row chunk `s` of decoder projections, forms the logits
  `(∑ₕ enc[0,p,h] · W₁[h,v] + s[q,v]) + bias[0,v]` over `[32, 16, 1024]` and returns their log-softmax along `v`: the
  entry `(0, p, q, v)` is the specification's `logSoftmaxRow` of the row of logits of `(p, q)`, at `v`. Every step that is
  not entry by entry (a reshape, a broadcast, the matrix product, the two row reductions) gets one lemma at coordinates.
-/
import proofs.«103141_j62775241999026_2_alg».proof.Proof.Gen.KernelIdeal.Skeleton
import proofs.«103141_j62775241999026_2_alg».proof.Proof.Spec
import Idealize.ShloMosaic.Lib.ValueLayout
import Idealize.ShloMosaic.PureOps.Ideal.Laws

noncomputable section

namespace Cert.Joint.Payload

open Cert.KernelIdeal Cert.KernelIdeal.Gen Idealize.ShloMosaic Idealize.ShloMosaic.ValueIdx Cert.Joint

/-! ## Layout operations at coordinates -/

section Layout
variable {α : Type} {a b c : ℕ}

/-- An `[a, b]` array cast to `[a, 1, b]` reads, at `(i, u, j)`, the operand at `(i, j)`. -/
theorem shapeCast_ab_a1b_apply (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A coordinate kept by a broadcast: on an axis of extent `n` the operand is read at the result's coordinate,
    which is `0` anyway when `n = 1`. -/
theorem keep_coord {n : ℕ} (l : Fin n) : l.val = if n = 1 then 0 else l.val := by
  split
  · have := l.isLt; omega
  · rfl

/-- An `[a, 1, c]` array broadcast to `[a, b, c]` reads, at `(i, j, l)`, the operand at `(i, 0, l)`. -/
theorem broadcastTo_a1c_abc_apply (x : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ x h (ix3 i j l) = x (ix3 i (0 : Fin 1) l) :=
  broadcastTo_apply x h (ix3 i j l) (ix3 i (0 : Fin 1) l) fun ax => by
    match ax with
    | ⟨0, _⟩ => exact keep_coord i
    | ⟨1, _⟩ => rfl
    | ⟨2, _⟩ => exact keep_coord l

/-- A `[1, b, c]` array broadcast to `[a, b, c]` reads, at `(i, j, l)`, the operand at `(0, j, l)`. -/
theorem broadcastTo_1bc_abc_apply (x : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ x h (ix3 i j l) = x (ix3 (0 : Fin 1) j l) :=
  broadcastTo_apply x h (ix3 i j l) (ix3 (0 : Fin 1) j l) fun ax => by
    match ax with
    | ⟨0, _⟩ => rfl
    | ⟨1, _⟩ => exact keep_coord j
    | ⟨2, _⟩ => exact keep_coord l

/-- A `[1, 1, c]` array broadcast to `[a, b, c]` reads, at `(i, j, l)`, the operand at `(0, 0, l)`. -/
theorem broadcastTo_11c_abc_apply (x : (⟨3, ![1, 1, c]⟩ : Shape).Idx → α)
    (h : (⟨3, ![1, 1, c]⟩ : Shape).Broadcasts ⟨3, ![a, b, c]⟩) (i : Fin a) (j : Fin b) (l : Fin c) :
    broadcastTo ⟨3, ![a, b, c]⟩ x h (ix3 i j l) = x (ix3 (0 : Fin 1) (0 : Fin 1) l) :=
  broadcastTo_apply x h (ix3 i j l) (ix3 (0 : Fin 1) (0 : Fin 1) l) fun ax => by
    match ax with
    | ⟨0, _⟩ => rfl
    | ⟨1, _⟩ => rfl
    | ⟨2, _⟩ => exact keep_coord l

/-- An `[a, b, 1]` array broadcast to `[a, b, c]` reads, at `(i, j, l)`, the operand at `(i, j, 0)`. -/
theorem broadcastTo_ab1_abc_apply (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) :=
  broadcastTo_apply x h (ix3 i j l) (ix3 i j (0 : Fin 1)) fun ax => by
    match ax with
    | ⟨0, _⟩ => exact keep_coord i
    | ⟨1, _⟩ => exact keep_coord j
    | ⟨2, _⟩ => rfl

end Layout

/-! ## The matrix product and the two row reductions at coordinates -/

/-- `exp` and `log` act entry by entry. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The bf16 word of zero denotes the number `0`. -/
theorem ofBits_zero_bf16 : Ideal.ofBits .bf16 0x0000#16 = 0 := by simp [Ideal.ofBits, Ideal.ieee]

/-- A plain matrix product `[m, k] · [k, n]` accumulated into zero reads, at `(r, c)`, the sum over the contracted
    coordinate of the products of the entries: the contraction index has one axis, so the sum over it is re-indexed by
    that axis's coordinate, and the two operand indices at `(r, c)` and `h` are `(r, h)` and `(h, c)`. -/
theorem matmul_zero_apply {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (r : Fin m) (c : Fin n) :
    FloatOps.matmul (⟨[1], [0], [0], [1], [], [], w⟩ : DotDims _ _ _) none A B
        (constant (F := Ideal) ⟨2, ![m, n]⟩ .f32 0x00000000#32) (ix2 r c)
      = ∑ h : Fin k, A (ix2 r h) * B (ix2 h c) := by
  rw [Ideal.matmul_constant_zero_apply, ← Equiv.sum_comp (contrEquiv1 _ k rfl rfl).symm]
  refine Finset.sum_congr rfl fun h _ => ?_
  have hh := contrEquiv1_symm_val (⟨[1], [0], [0], [1], [], [], w⟩ : DotDims _ _ _) k rfl rfl h
  have el : (⟨[1], [0], [0], [1], [], [], w⟩ : DotDims _ _ _).lhsIdx (ix2 r c) ((contrEquiv1 _ k rfl rfl).symm h) = ix2 r h := by
    funext ax; apply Fin.ext
    match ax with
    | ⟨0, _⟩ => simp [DotDims.lhsIdx]; rfl
    | ⟨1, _⟩ => exact (DotDims.lhsIdx_val_of_single _ rfl _ _).trans hh
  have er : (⟨[1], [0], [0], [1], [], [], w⟩ : DotDims _ _ _).rhsIdx (ix2 r c) ((contrEquiv1 _ k rfl rfl).symm h) = ix2 h c := by
    funext ax; apply Fin.ext
    match ax with
    | ⟨0, _⟩ => exact (DotDims.rhsIdx_val_of_single _ rfl _ _).trans hh
    | ⟨1, _⟩ => simp [DotDims.rhsIdx]; rfl
  rw [el, er]

/-- The index a reduction along the last axis of `[32, 16, 1024]` reads at `(p, q)` and `k` is `(p, q, k)`. -/
theorem lift_ix2 (h : S32x16x1024.Reduces [2] S32x16) (p : Fin 32) (q : Fin 16) (k : Fin 1024) :
    h.lift (ix2 p q) k = ix3 p q k := by
  funext ax; apply Fin.ext
  match ax with
  | ⟨0, _⟩ => rfl
  | ⟨1, _⟩ => rfl
  | ⟨2, _⟩ => rfl

/-- The sum along the last axis, from the zero word, read at `(p, q)`: the sum of the row `(p, q, ·)`. -/
theorem sumLast_apply (x : FVec Ideal S32x16x1024 .f32) (p : Fin 32) (q : Fin 16) :
    multiReduction (F := Ideal) .add [2] S32x16 x 0x00000000#32 reduces_S32x16x1024_S32x16 (.inl rfl) rfl (ix2 p q)
      = ∑ k : Fin 1024, x (ix3 p q k) := by
  refine (Ideal.multiReduction_add_single x 0x00000000#32 reduces_S32x16x1024_S32x16 (.inl rfl) rfl (ix2 p q)).trans ?_
  exact Finset.sum_congr rfl fun k _ => congrArg x (lift_ix2 _ p q k)

/-- The maximum along the last axis, from the word of −∞, read at `(p, q)`: the maximum of the row `(p, q, ·)`
    folded from −∞. -/
theorem maxLast_apply (x : FVec Ideal S32x16x1024 .f32) (p : Fin 32) (q : Fin 16) :
    multiReduction (F := Ideal) .maximumf [2] S32x16 x 0xFF800000#32 reduces_S32x16x1024_S32x16 (.inl rfl) rfl (ix2 p q)
      = rowMax fun k => x (ix3 p q k) := by
  refine (Ideal.multiReduction_maximumf_single x 0xFF800000#32 reduces_S32x16x1024_S32x16 (.inl rfl) rfl (ix2 p q)).trans ?_
  exact congrArg (Finset.univ.fold max negInf) (funext fun k => congrArg x (lift_ix2 _ p q k))

/-! ## The decoder projection -/

/-- The first payload at `(u, v)`: the weight operand is `x2 · 0 + x3`, which is `x3` entry by entry, so the product
    with the decoder block is the plain sum over the 256 hidden coordinates. -/
theorem pay1_apply (x1 : Vec Ideal S1x64x256 .f32) (x2 x3 : Vec Ideal S256x1024 .bf16) (u : Fin 64) (v : Fin 1024) :
    k0_pay1 (F := Ideal) x1 x2 x3 (ix2 u v) = ∑ h : Fin 256, x1 (ix3 (0 : Fin 1) u h) * x3 (ix2 h v) := by
  unfold k0_pay1
  simp only [shapeCast_self]
  refine (matmul_zero_apply _ _ _ u v).trans (Finset.sum_congr rfl fun h _ => ?_)
  rw [truncf_apply, shapeCast_1ab_ab_apply, addf_apply, mulf_apply, broadcast_apply]
  show x1 _ * (x2 _ * Ideal.ofBits .bf16 0x0000#16 + x3 _) = _
  rw [ofBits_zero_bf16, mul_zero, zero_add]

/-! ## The log-softmax of the logits block

The second payload is cut in two: the block of logits `[32, 16, 1024]` it forms from its four arguments, and the
log-softmax along the last axis it then takes of that block, whatever the block is. -/

/-- The block of logits: the encoder projection along `p`, the chunk of decoder projections along `q`, the bias everywhere. -/
def logitsBlock (x0 : Vec Ideal S1x32x256 .f32) (x2 : Vec Ideal S256x1024 .bf16) (x4 : Vec Ideal S1x1024 .f32)
    (s : Vec Ideal S16x1024 .f32) : FVec Ideal S32x16x1024 .f32 :=
  addf
    (addf
      (broadcastTo S32x16x1024
        (shapeCast S32x1x1024
          (matmul dot_S32x256_S256x1024_S32x1024_1_0_0_1_n_n none
            (truncf .bf16 (shapeCast S32x256 x0 shapeCasts_S1x32x256_S32x256) bitsLt_bf16_f32)
            (shapeCast S256x1024 x2 shapeCasts_S256x1024_S256x1024 : FVec Ideal S256x1024 .bf16)
            (constant S32x1024 .f32 0x00000000#32))
          shapeCasts_S32x1024_S32x1x1024)
        broadcasts_S32x1x1024_S32x16x1024)
      (broadcastTo S32x16x1024 (shapeCast S1x16x1024 s shapeCasts_S16x1024_S1x16x1024) broadcasts_S1x16x1024_S32x16x1024))
    (broadcastTo S32x16x1024
      (shapeCast S1x1x1024 (shapeCast S1x1024 x4 shapeCasts_S1x1024_S1x1024) shapeCasts_S1x1024_S1x1x1024)
      broadcasts_S1x1x1024_S32x16x1024)

/-- A block minus its row maxima, the maxima put back on the last axis. -/
def shifted (L : FVec Ideal S32x16x1024 .f32) : FVec Ideal S32x16x1024 .f32 :=
  subf L
    (broadcastTo S32x16x1024
      (shapeCast S32x16x1
        (multiReduction .maximumf [2] S32x16 L 0xFF800000#32 reduces_S32x16x1024_S32x16 (.inl rfl) rfl)
        shapeCasts_S32x16_S32x16x1)
      broadcasts_S32x16x1_S32x16x1024)

/-- The shifted block minus the logarithm of its rows' sums of exponentials, as the stored `[1, 32, 16, 1024]`. -/
def logSoftmaxBlock (L : FVec Ideal S32x16x1024 .f32) : FVec Ideal S1x32x16x1024 .f32 :=
  shapeCast S1x32x16x1024
    (subf (shifted L)
      (broadcastTo S32x16x1024
        (log
          (shapeCast S32x16x1
            (multiReduction .add [2] S32x16 (exp (shifted L)) 0x00000000#32 reduces_S32x16x1024_S32x16 (.inl rfl) rfl)
            shapeCasts_S32x16_S32x16x1))
        broadcasts_S32x16x1_S32x16x1024))
    shapeCasts_S32x16x1024_S1x32x16x1024

/-- The second payload is the log-softmax block of the logits block. -/
theorem pay2_eq (x0 : Vec Ideal S1x32x256 .f32) (x2 : Vec Ideal S256x1024 .bf16) (x4 : Vec Ideal S1x1024 .f32)
    (s : Vec Ideal S16x1024 .f32) : k0_pay2 (F := Ideal) x0 x2 x4 s = logSoftmaxBlock (logitsBlock x0 x2 x4 s) := rfl

/-- A logit at `(p, q, v)`: the encoder projection of row `p`, plus the chunk's entry `(q, v)`, plus the bias at `v`. -/
theorem logitsBlock_apply (x0 : Vec Ideal S1x32x256 .f32) (x2 : Vec Ideal S256x1024 .bf16) (x4 : Vec Ideal S1x1024 .f32)
    (s : Vec Ideal S16x1024 .f32) (p : Fin 32) (q : Fin 16) (v : Fin 1024) :
    logitsBlock x0 x2 x4 s (ix3 p q v)
      = ((∑ h : Fin 256, x0 (ix3 (0 : Fin 1) p h) * x2 (ix2 h v)) + s (ix2 q v)) + x4 (ix2 (0 : Fin 1) v) := by
  unfold logitsBlock
  simp only [shapeCast_self]
  rw [addf_apply, addf_apply, broadcastTo_a1c_abc_apply, broadcastTo_1bc_abc_apply, broadcastTo_11c_abc_apply,
    shapeCast_ab_a1b_apply, shapeCast_ab_1ab_apply, shapeCast_ab_1ab_apply]
  refine congrArg (· + s (ix2 q v) + x4 (ix2 (0 : Fin 1) v)) ?_
  refine (matmul_zero_apply (φ₂ := .bf16) _ _ _ p v).trans (Finset.sum_congr rfl fun h _ => ?_)
  rw [truncf_apply, shapeCast_1ab_ab_apply]

/-- The shifted block at `(p, q, v)`: the entry minus the maximum of its row. -/
theorem shifted_apply (L : FVec Ideal S32x16x1024 .f32) (p : Fin 32) (q : Fin 16) (v : Fin 1024) :
    shifted L (ix3 p q v) = L (ix3 p q v) - rowMax fun k => L (ix3 p q k) := by
  unfold shifted
  rw [subf_apply, broadcastTo_ab1_abc_apply, shapeCast_ab_ab1_apply, maxLast_apply]

/-- The log-softmax block at `(0, p, q, v)` is the specification's log-softmax of row `(p, q, ·)` at `v`. -/
theorem logSoftmaxBlock_apply (L : FVec Ideal S32x16x1024 .f32) (p : Fin 32) (q : Fin 16) (v : Fin 1024) :
    logSoftmaxBlock L (ix4 (0 : Fin 1) p q v) = logSoftmaxRow (fun k => L (ix3 p q k)) v := by
  unfold logSoftmaxBlock logSoftmaxRow
  rw [shapeCast_abc_1abc_apply, subf_apply, broadcastTo_ab1_abc_apply, log_apply, shapeCast_ab_ab1_apply,
    sumLast_apply, shifted_apply]
  simp only [exp_apply, shifted_apply]

/-- The second payload at `(0, p, q, v)`: the log-softmax, along the vocabulary, of the logits of `(p, q)`. -/
theorem pay2_apply (x0 : Vec Ideal S1x32x256 .f32) (x2 : Vec Ideal S256x1024 .bf16) (x4 : Vec Ideal S1x1024 .f32)
    (s : Vec Ideal S16x1024 .f32) (p : Fin 32) (q : Fin 16) (v : Fin 1024) :
    k0_pay2 (F := Ideal) x0 x2 x4 s (ix4 (0 : Fin 1) p q v)
      = logSoftmaxRow (fun v' => ((∑ h : Fin 256, x0 (ix3 (0 : Fin 1) p h) * x2 (ix2 h v')) + s (ix2 q v'))
          + x4 (ix2 (0 : Fin 1) v')) v := by
  rw [pay2_eq, logSoftmaxBlock_apply]
  exact congrArg (logSoftmaxRow · v) (funext fun v' => logitsBlock_apply x0 x2 x4 s p q v')

end Cert.Joint.Payload
end
-- ==== Proof.Block.lean ====
/-
  What the kernel body leaves in the output's staging buffer at one grid point, as ONE function of the block index.

  The body's loop makes four trips; trip `k` loads rows `16k .. 16k+15` of the scratch of decoder projections and
  stores, at rows `16k .. 16k+15` of the [1, 32, 64, 1024] output block, the log-softmax of the logits
  `(enc_proj[p, v] + scratch[16k + q, v]) + bias[v]`. So every store is a block of the one function

      blk(0, p, u, v) = logSoftmaxRow (v' ↦ (∑ₕ enc[0,p,h] · W₁[h,v'] + scratch[u,v']) + bias[0,v']) v

  of the output block's index, and the four stores tile the block: after the loop the staging buffer holds `blk`.
  At a grid point that begins a batch the scratch is first overwritten whole by the decoder projection, and the loop
  reads that; at the other points it reads what the point before left.
-/
import proofs.«103141_j62775241999026_2_alg».proof.Proof.Gen.KernelIdeal.Frame
import proofs.«103141_j62775241999026_2_alg».proof.Proof.Payload
import Idealize.ShloMosaic.Lib.Pipeline.Value
import Idealize.ShloMosaic.Lib.Tactic

noncomputable section

namespace Cert.Joint.Block

open Cert.KernelIdeal Cert.KernelIdeal.Gen Idealize.ShloMosaic Idealize.ShloMosaic.TcCoe Idealize.ShloMosaic.ValueIdx
open Idealize.SL.Sem Cert.Joint

/-! ## The block as one function -/

/-- The output block at explicit coordinates: row `p` of the encoder tile, decoder step `u`, vocabulary entry `v`,
    over a scratch `S` of decoder projections. -/
def blkAt (x0 : Vec Ideal S1x32x256 .f32) (x2 : Vec Ideal S256x1024 .bf16) (x4 : Vec Ideal S1x1024 .f32)
    (S : Vec Ideal S64x1024 .f32) (p : Fin 32) (u : Fin 64) (v : Fin 1024) : EReal :=
  logSoftmaxRow (fun v' => ((∑ h : Fin 256, x0 (ix3 (0 : Fin 1) p h) * x2 (ix2 h v')) + S (ix2 u v'))
    + x4 (ix2 (0 : Fin 1) v')) v

/-- The same as a function of the block's index. -/
def blk (x0 : Vec Ideal S1x32x256 .f32) (x2 : Vec Ideal S256x1024 .bf16) (x4 : Vec Ideal S1x1024 .f32)
    (S : Vec Ideal S64x1024 .f32) : Vec Ideal S1x32x64x1024 .f32 := fun y =>
  blkAt x0 x2 x4 S ⟨(y 1).val, (y 1).isLt⟩ ⟨(y 2).val, (y 2).isLt⟩ ⟨(y 3).val, (y 3).isLt⟩

theorem blk_ix4 (x0 : Vec Ideal S1x32x256 .f32) (x2 : Vec Ideal S256x1024 .bf16) (x4 : Vec Ideal S1x1024 .f32)
    (S : Vec Ideal S64x1024 .f32) (a : Fin 1) (p : Fin 32) (u : Fin 64) (v : Fin 1024) :
    blk x0 x2 x4 S (ix4 a p u v) = blkAt x0 x2 x4 S p u v := rfl

/-! ## One trip's store -/

section Trip
variable {F : FTy → Type} [FloatOps F]

/-- Trip `k` makes one store: at rows `16k ..` of the output block, the payload of the rows `16k ..` of the scratch. -/
theorem tripL_eq (𝒱 : Variants) (bd : Option 𝒱.V) (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole)
    (v3 : Vec F S1x32x256 .f32) (v6 : Vec F S256x1024 .bf16) (v9 : Vec F S1x1024 .f32)
    (X : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 v3 v6 v9 X k
      = [⟨Rect.unit (s := S1x32x64x1024) (k0_off2 k) S1x32x16x1024.size (k0_off2_inb k),
          k0_pay2 v3 v6 v9 (View.readAt (Elt F) arg8.view (Rect.unit (s := S64x1024) (k0_off1 k) S16x1024.size (k0_off1_inb k)).toLoadRect X)⟩] := by
  show (trip_k0_t1 (F := F) 𝒱 c bd i arg2 harg2 arg3 harg3 arg4 harg4 arg5 harg5 arg6 harg6 arg7 harg7 arg8 harg8 v3 v6 v9 X k).1 = _
  unfold trip_k0_t1
  rfl

/-- So every store of the trips before `n` is some trip's store. -/
theorem mem_pb (𝒱 : Variants) (bd : Option 𝒱.V) (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole)
    (v3 : Vec F S1x32x256 .f32) (v6 : Vec F S256x1024 .bf16) (v9 : Vec F S1x1024 .f32)
    (X : BufTy.Contents (Elt F) arg8.view.ty) :
    ∀ (n : ℕ) (pc : View.Piece (Elt F) S1x32x64x1024 .f32),
      pc ∈ pb_k0_t1 (F := F) 𝒱 c bd i arg2 harg2 arg3 harg3 arg4 harg4 arg5 harg5 arg6 harg6 arg7 harg7 arg8 harg8 v3 v6 v9 X n →
      ∃ k : Fin k0_t1_loop.trips, pc = ⟨Rect.unit (s := S1x32x64x1024) (k0_off2 k) S1x32x16x1024.size (k0_off2_inb k),
          k0_pay2 v3 v6 v9 (View.readAt (Elt F) arg8.view (Rect.unit (s := S64x1024) (k0_off1 k) S16x1024.size (k0_off1_inb k)).toLoadRect X)⟩
  | 0, pc, h => absurd h List.not_mem_nil
  | n + 1, pc, h => by
    rw [pb_k0_t1.eq_2] at h
    unfold pb_k0_t1Step at h
    by_cases hn : n < k0_t1_loop.trips
    · rw [dif_pos hn] at h
      rcases List.mem_append.mp h with h1 | h2
      · rw [tripL_eq] at h1
        exact ⟨⟨n, hn⟩, List.mem_singleton.mp h1⟩
      · exact mem_pb 𝒱 bd c i arg2 harg2 arg3 harg3 arg4 harg4 arg5 harg5 arg6 harg6 arg7 harg7 arg8 harg8 v3 v6 v9 X n pc h2
    · rw [dif_neg hn] at h
      exact mem_pb 𝒱 bd c i arg2 harg2 arg3 harg3 arg4 harg4 arg5 harg5 arg6 harg6 arg7 harg7 arg8 harg8 v3 v6 v9 X n pc h

end Trip

/-! ## A trip's store is a block of `blk` -/

/-- Trip `k`'s payload at its own index `x` is `blk`, over the scratch as the loop finds it, at the place of the output
    block that `x` names: the rows the trip loads from the scratch are the rows it stores to. -/
theorem piece_blk (arg8 : Memref sig .tc .vmem S64x1024 .f32)
    (x0 : Vec Ideal S1x32x256 .f32) (x2 : Vec Ideal S256x1024 .bf16) (x4 : Vec Ideal S1x1024 .f32)
    (X : BufTy.Contents (Elt Ideal) arg8.view.ty) (k : Fin k0_t1_loop.trips)
    (x : (Rect.unit (s := S1x32x64x1024) (k0_off2 k) S1x32x16x1024.size (k0_off2_inb k)).shape.Idx) :
    k0_pay2 (F := Ideal) x0 x2 x4 (View.readAt (Elt Ideal) arg8.view (Rect.unit (s := S64x1024) (k0_off1 k) S16x1024.size (k0_off1_inb k)).toLoadRect X) x
      = blk x0 x2 x4 (arg8.view.read (Elt Ideal) X) ((Rect.unit (s := S1x32x64x1024) (k0_off2 k) S1x32x16x1024.size (k0_off2_inb k)).emb x) := by
  obtain ⟨a, p, q, v, rfl⟩ : ∃ (a : Fin 1) (p : Fin 32) (q : Fin 16) (v : Fin 1024), x = ix4 a p q v :=
    ⟨x 0, x 1, x 2, x 3, eq_ix4 (n0 := 1) (n1 := 32) (n2 := 16) (n3 := 1024) x⟩
  obtain rfl : a = 0 := Subsingleton.elim _ _
  have hk : k.val < 4 := Nat.lt_of_lt_of_le k.isLt k0_t1_abs.2.1
  have o2 := k0_off2_eq k
  have o1 := k0_off1_eq k
  refine (Payload.pay2_apply x0 x2 x4 _ p q v).trans ?_
  -- the coordinates of the place in the output block
  have e1 : (⟨((Rect.unit (s := S1x32x64x1024) (k0_off2 k) S1x32x16x1024.size (k0_off2_inb k)).emb (ix4 (0 : Fin 1) p q v) 1).val,
      ((Rect.unit (s := S1x32x64x1024) (k0_off2 k) S1x32x16x1024.size (k0_off2_inb k)).emb (ix4 (0 : Fin 1) p q v) 1).isLt⟩ : Fin 32) = p :=
    Fin.ext (by show (k0_off2 k) 1 + 1 * p.val = p.val; rw [o2]; show 0 + 1 * p.val = p.val; omega)
  have e3 : (⟨((Rect.unit (s := S1x32x64x1024) (k0_off2 k) S1x32x16x1024.size (k0_off2_inb k)).emb (ix4 (0 : Fin 1) p q v) 3).val,
      ((Rect.unit (s := S1x32x64x1024) (k0_off2 k) S1x32x16x1024.size (k0_off2_inb k)).emb (ix4 (0 : Fin 1) p q v) 3).isLt⟩ : Fin 1024) = v :=
    Fin.ext (by show (k0_off2 k) 3 + 1 * v.val = v.val; rw [o2]; show 0 + 1 * v.val = v.val; omega)
  have e2 : (⟨((Rect.unit (s := S1x32x64x1024) (k0_off2 k) S1x32x16x1024.size (k0_off2_inb k)).emb (ix4 (0 : Fin 1) p q v) 2).val,
      ((Rect.unit (s := S1x32x64x1024) (k0_off2 k) S1x32x16x1024.size (k0_off2_inb k)).emb (ix4 (0 : Fin 1) p q v) 2).isLt⟩ : Fin 64)
      = ⟨16 * k.val + q.val, by have := q.isLt; omega⟩ :=
    Fin.ext (by show (k0_off2 k) 2 + 1 * q.val = 16 * k.val + q.val; rw [o2]; show 16 * k.val + 1 * q.val = 16 * k.val + q.val; omega)
  show _ = blkAt x0 x2 x4 (arg8.view.read (Elt Ideal) X) _ _ _
  rw [e1, e2, e3]
  unfold blkAt
  refine congrArg (logSoftmaxRow · v) (funext fun v' => ?_)
  refine congrArg (fun z => ((∑ h : Fin 256, x0 (ix3 (0 : Fin 1) p h) * x2 (ix2 h v')) + z) + x4 (ix2 (0 : Fin 1) v')) ?_
  -- the row of the scratch the trip loaded
  rw [View.readAt_apply]
  refine congrArg (arg8.view.read (Elt Ideal) X) (funext fun ax => Fin.ext ?_)
  match ax with
  | ⟨0, _⟩ => show (k0_off1 k) 0 + 1 * q.val = 16 * k.val + q.val; rw [o1]; show 16 * k.val + 1 * q.val = 16 * k.val + q.val; omega
  | ⟨1, _⟩ => show (k0_off1 k) 1 + 1 * v'.val = v'.val; rw [o1]; show 0 + 1 * v'.val = v'.val; omega

/-- So the canon of the stores of the trips before `n`, wherever one of them covers, is `blk`. -/
theorem canon_pb (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole)
    (x0 : Vec Ideal S1x32x256 .f32) (x2 : Vec Ideal S256x1024 .bf16) (x4 : Vec Ideal S1x1024 .f32)
    (X : BufTy.Contents (Elt Ideal) arg8.view.ty) (n : ℕ) (y : S1x32x64x1024.Idx)
    (hy : ∃ pc ∈ pb_k0_t1 (F := Ideal) Variants.none c none i arg2 harg2 arg3 harg3 arg4 harg4 arg5 harg5 arg6 harg6 arg7 harg7 arg8 harg8 x0 x2 x4 X n, y ∈ pc.1.set) :
    View.canon (pb_k0_t1 (F := Ideal) Variants.none c none i arg2 harg2 arg3 harg3 arg4 harg4 arg5 harg5 arg6 harg6 arg7 harg7 arg8 harg8 x0 x2 x4 X n) y
      = blk x0 x2 x4 (arg8.view.read (Elt Ideal) X) y :=
  View.canon_apply_of_pieces (blk x0 x2 x4 (arg8.view.read (Elt Ideal) X)) _ (fun pc hpc x => by
    obtain ⟨k, rfl⟩ := mem_pb Variants.none none c i arg2 harg2 arg3 harg3 arg4 harg4 arg5 harg5 arg6 harg6 arg7 harg7 arg8 harg8 x0 x2 x4 X n pc hpc
    exact piece_blk arg8 x0 x2 x4 X k x) y hy

end Cert.Joint.Block

end
-- ==== Proof.Point.lean ====
/-
  What one grid point leaves behind, case by case.

  At a point that begins a batch (encoder tile 0) the body first overwrites the whole scratch with the decoder
  projection of the batch's decoder block, then runs the loop over it; at every other point it runs the loop over the
  scratch as the point before left it. In both cases the output's staging buffer ends holding the block function
  `blk` of the encoder tile, `W₁`, the bias and the scratch the loop read.
-/
import proofs.«103141_j62775241999026_2_alg».proof.Proof.Block

noncomputable section

namespace Cert.Joint.Point

open Cert.KernelIdeal Cert.KernelIdeal.Gen Idealize.ShloMosaic Idealize.ShloMosaic.TcCoe Idealize.ShloMosaic.ValueIdx
open Idealize.ShloMosaic.Tactic Idealize.SL.Sem Cert.Joint Cert.Joint.Block

theorem hz2 : (![0, 0] : Fin 2 → Nat) = fun _ => 0 := funext fun a => by fin_cases a <;> rfl
theorem hz3 : (![0, 0, 0] : Fin 3 → Nat) = fun _ => 0 := funext fun a => by fin_cases a <;> rfl

/-- A point inside a batch: the loop reads the scratch `xs0` the point before left, and the output block is `blk` over it. -/
theorem out_B_eq (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : ¬cond0_0 i) (x0 : Vec Ideal S1x32x256 .f32) (x1 : Vec Ideal S1x64x256 .f32) (x2 : Vec Ideal S256x1024 .bf16) (x3 : Vec Ideal S256x1024 .bf16) (x4 : Vec Ideal S1x1024 .f32) (xs0 : Vec Ideal S64x1024 .f32) :
    out0_B_5 (F := Ideal) c i arg2 harg2 arg3 harg3 arg4 harg4 arg5 harg5 arg6 harg6 arg7 harg7 arg8 harg8 hc0 x0 x1 x2 x3 x4 xs0 = blk x0 x2 x4 xs0 := by
  funext y
  have hcov := cover0_B_5 (F := Ideal) c i arg2 harg2 arg3 harg3 arg4 harg4 arg5 harg5 arg6 harg6 arg7 harg7 arg8 harg8 hc0 x0 x1 x2 x3 x4 xs0 y
  unfold out0_B_5
  rw [View.read_writes_junk_eq_canon]
  unfold kernelRun0_B at hcov ⊢
  dsimp only at hcov ⊢
  refine (canon_pb c i arg2 harg2 arg3 harg3 arg4 harg4 arg5 harg5 arg6 harg6 arg7 harg7 arg8 harg8 _ _ _ _ _ y hcov).trans ?_
  simp only [View.readAt_eq_ld, harg2.read_unread, harg4.read_unread, harg6.read_unread, harg8.read_unread,
    View.ld_unit_zero (S := S1x32x256) hz3, View.ld_unit_zero (S := S256x1024) hz2, View.ld_unit_zero (S := S1x1024) hz2]

/-- A point that begins a batch leaves in the scratch the decoder projection of its decoder block. -/
theorem sout_A_eq (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : cond0_0 i) (x0 : Vec Ideal S1x32x256 .f32) (x1 : Vec Ideal S1x64x256 .f32) (x2 : Vec Ideal S256x1024 .bf16) (x3 : Vec Ideal S256x1024 .bf16) (x4 : Vec Ideal S1x1024 .f32) :
    sout0_A_0 (F := Ideal) c i arg2 harg2 arg3 harg3 arg4 harg4 arg5 harg5 arg6 harg6 arg7 harg7 arg8 harg8 hc0 x0 x1 x2 x3 x4 = k0_pay1 (F := Ideal) x1 x2 x3 := by
  unfold sout0_A_0
  rw [View.read_writes_junk_eq_canon]
  unfold kernelRun0_A
  dsimp only
  sl_unfold_words
  rw [View.canon_unit_zero hz2]
  simp only [View.readAt_eq_ld, harg3.read_unread, harg4.read_unread, harg5.read_unread,
    View.ld_unit_zero (S := S1x64x256) hz3, View.ld_unit_zero (S := S256x1024) hz2]

/-- … and its output block is `blk` over that projection: the loop reads the scratch just stored. -/
theorem out_A_eq (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : cond0_0 i) (x0 : Vec Ideal S1x32x256 .f32) (x1 : Vec Ideal S1x64x256 .f32) (x2 : Vec Ideal S256x1024 .bf16) (x3 : Vec Ideal S256x1024 .bf16) (x4 : Vec Ideal S1x1024 .f32) :
    out0_A_5 (F := Ideal) c i arg2 harg2 arg3 harg3 arg4 harg4 arg5 harg5 arg6 harg6 arg7 harg7 arg8 harg8 hc0 x0 x1 x2 x3 x4 = blk x0 x2 x4 (k0_pay1 (F := Ideal) x1 x2 x3) := by
  funext y
  have hcov := cover0_A_5 (F := Ideal) c i arg2 harg2 arg3 harg3 arg4 harg4 arg5 harg5 arg6 harg6 arg7 harg7 arg8 harg8 hc0 x0 x1 x2 x3 x4 y
  unfold out0_A_5
  rw [View.read_writes_junk_eq_canon]
  unfold kernelRun0_A at hcov ⊢
  dsimp only at hcov ⊢
  refine (canon_pb c i arg2 harg2 arg3 harg3 arg4 harg4 arg5 harg5 arg6 harg6 arg7 harg7 arg8 harg8 _ _ _ _ _ y hcov).trans ?_
  rw [View.read_writes_junk_eq_canon]
  sl_unfold_words
  rw [View.canon_unit_zero hz2]
  simp only [View.readAt_eq_ld, harg2.read_unread, harg3.read_unread, harg4.read_unread, harg5.read_unread, harg6.read_unread,
    View.ld_unit_zero (S := S1x32x256) hz3, View.ld_unit_zero (S := S1x64x256) hz3, View.ld_unit_zero (S := S256x1024) hz2,
    View.ld_unit_zero (S := S1x1024) hz2]

end Cert.Joint.Point

end
-- ==== Proof.Blocks.lean ====
/-
  The kernel's five input blocks at a grid point, read entry by entry back to the program's four argument arrays.

  The grid has 8 × 8 points; point `t` works on batch `t / 8` and encoder tile `t % 8`. There the kernel is handed the
  encoder block `enc[t / 8, 32 · (t % 8) + p, h]` (32 encoder steps), the decoder block `dec[t / 8, u, h]` (all 64 decoder
  steps), and, whole, the two halves of the weight matrix, `W[h, v]` and `W[256 + h, v]`, and the bias `bias[v]`.
-/
import proofs.«103141_j62775241999026_2_alg».proof.Proof.Gen.KernelIdeal.Frame
import proofs.«103141_j62775241999026_2_alg».proof.Proof.Spec
import Idealize.ShloMosaic.Lib.Pipeline.Value
import Idealize.ShloMosaic.Lib.StableHlo.Run
import Idealize.ShloMosaic.Lib.ValueIdx

noncomputable section

namespace Cert.Joint.Blocks

open Cert.KernelIdeal Cert.KernelIdeal.Gen Idealize.ShloMosaic Idealize.ShloMosaic.TcCoe Idealize.ShloMosaic.ValueIdx
  Idealize.SL.Sem Cert.Joint

variable (m : (ℓ : Loc nD τ sig) → Buf (Elt Ideal) ℓ) (c : Dev nD)

/-- The batch a grid point works on. -/
def batchOf (t : Fin cfg0.N) : Fin 8 := ⟨t.val / 8, by have := t.isLt; have : cfg0.N = 64 := N_0; omega⟩
/-- The encoder step of row `p` of the point's tile. -/
def stepOf (t : Fin cfg0.N) (p : Fin 32) : Fin 256 := ⟨32 * (t.val % 8) + p.val, by have := p.isLt; omega⟩

/-! ## Where a block's entry sits in its array

The grid has 8 × 8 points; point `t` works on batch `t / 8` and on encoder tile `t % 8`. A window's block at `t` starts
at its block index times the block's extents, so an entry of the block sits at that start plus its own coordinates. The
block indices of the two tiled windows are decided once over the 64 points; the three whole-array windows' are `0`. -/

/-- The encoder window's block index at point `t` is `(t / 8, t % 8, 0)`. -/
theorem index0 : ∀ t : Fin cfg0.N, win0_0.index t (0 : Fin 3) = t.val / 8 ∧ win0_0.index t 1 = t.val % 8 ∧ win0_0.index t 2 = 0 :=
  (by decide +kernel : ∀ t : Fin grid0.N, win0_0.index t (0 : Fin 3) = t.val / 8 ∧ win0_0.index t 1 = t.val % 8 ∧ win0_0.index t 2 = 0)

/-- The decoder window's block index at point `t` is `(t / 8, 0, 0)`. -/
theorem index1 : ∀ t : Fin cfg0.N, win0_1.index t (0 : Fin 3) = t.val / 8 ∧ win0_1.index t 1 = 0 ∧ win0_1.index t 2 = 0 :=
  (by decide +kernel : ∀ t : Fin grid0.N, win0_1.index t (0 : Fin 3) = t.val / 8 ∧ win0_1.index t 1 = 0 ∧ win0_1.index t 2 = 0)

/-- Entry `(0, p, h)` of the encoder block at `t` is entry `(t / 8, 32 · (t % 8) + p, h)` of the encoder array. -/
theorem emb0 (t : Fin cfg0.N) (p : Fin 32) (h : Fin 256) :
    (((cfg0.win 0).blk t).view.emb (ix3 (0 : Fin 1) p h) : S8x256x256.Idx) = ix3 (batchOf t) (stepOf t p) h := by
  funext a; apply Fin.ext
  match a with
  | ⟨0, _⟩ => show win0_0.index t 0 * 1 + 1 * 0 = t.val / 8; rw [(index0 t).1]; omega
  | ⟨1, _⟩ => show win0_0.index t 1 * 32 + 1 * p.val = 32 * (t.val % 8) + p.val; rw [(index0 t).2.1]; omega
  | ⟨2, _⟩ => show win0_0.index t 2 * 256 + 1 * h.val = h.val; rw [(index0 t).2.2]; omega

/-- Entry `(0, u, h)` of the decoder block at `t` is entry `(t / 8, u, h)` of the decoder array. -/
theorem emb1 (t : Fin cfg0.N) (u : Fin 64) (h : Fin 256) :
    (((cfg0.win 1).blk t).view.emb (ix3 (0 : Fin 1) u h) : S8x64x256.Idx) = ix3 (batchOf t) u h := by
  funext a; apply Fin.ext
  match a with
  | ⟨0, _⟩ => show win0_1.index t 0 * 1 + 1 * 0 = t.val / 8; rw [(index1 t).1]; omega
  | ⟨1, _⟩ => show win0_1.index t 1 * 64 + 1 * u.val = u.val; rw [(index1 t).2.1]; omega
  | ⟨2, _⟩ => show win0_1.index t 2 * 256 + 1 * h.val = h.val; rw [(index1 t).2.2]; omega

/-- A whole-array window's block is the array: entry `(h, v)` sits at `(h, v)`. -/
theorem emb2 (t : Fin cfg0.N) (h : Fin 256) (v : Fin 1024) :
    (((cfg0.win 2).blk t).view.emb (ix2 h v) : S256x1024.Idx) = ix2 h v := by
  funext a; apply Fin.ext
  match a with
  | ⟨0, _⟩ => show 0 * 256 + 1 * h.val = h.val; omega
  | ⟨1, _⟩ => show 0 * 1024 + 1 * v.val = v.val; omega
theorem emb3 (t : Fin cfg0.N) (h : Fin 256) (v : Fin 1024) :
    (((cfg0.win 3).blk t).view.emb (ix2 h v) : S256x1024.Idx) = ix2 h v := by
  funext a; apply Fin.ext
  match a with
  | ⟨0, _⟩ => show 0 * 256 + 1 * h.val = h.val; omega
  | ⟨1, _⟩ => show 0 * 1024 + 1 * v.val = v.val; omega
theorem emb4 (t : Fin cfg0.N) (v : Fin 1024) :
    (((cfg0.win 4).blk t).view.emb (ix2 (0 : Fin 1) v) : S1x1024.Idx) = ix2 (0 : Fin 1) v := by
  funext a; apply Fin.ext
  match a with
  | ⟨0, _⟩ => show 0 * 1 + 1 * 0 = 0; omega
  | ⟨1, _⟩ => show 0 * 1024 + 1 * v.val = v.val; omega

/-! ## The three arrays the host prepares, entry by entry

Before the region the host cuts the weight matrix `W` `[512, 1024]` into its encoder half (rows 0..255) and its decoder
half (rows 256..511), narrows each to bf16 — on the extended reals, nothing — and views the bias `[1024]` as `[1, 1024]`. -/

/-- The encoder half of the weights at `(h, v)` is `W` at `(h, v)`. -/
theorem encW_apply (h : Fin 256) (v : Fin 1024) :
    (V m c main_v1 : S256x1024.Idx → EReal) (ix2 h v) = m ((c : Thread nD τ).loc main_arg2) (ix2 (encRow h) v) := by
  have e : (V m c main_v1 : S256x1024.Idx → EReal)
      = truncf .bf16 (extractStridedSlice S256x1024 ![0, 0] (m ((c : Thread nD τ).loc main_arg2))
          slices_S512x1024_S256x1024_0_0 : FVec Ideal S256x1024 .f32) bitsLt_bf16_f32 := by
    dsimp only [Gen.V, Gen.hostOps0]; after_results
  rw [e, truncf_apply]
  refine extractStridedSlice_apply ![0, 0] _ _ (ix2 h v) (ix2 (encRow h) v) fun a => ?_
  match a with
  | ⟨0, _⟩ => show h.val = 0 + h.val; omega
  | ⟨1, _⟩ => show v.val = 0 + v.val; omega

/-- The decoder half of the weights at `(h, v)` is `W` at `(256 + h, v)`. -/
theorem decW_apply (h : Fin 256) (v : Fin 1024) :
    (V m c main_v3 : S256x1024.Idx → EReal) (ix2 h v) = m ((c : Thread nD τ).loc main_arg2) (ix2 (decRow h) v) := by
  have e : (V m c main_v3 : S256x1024.Idx → EReal)
      = truncf .bf16 (extractStridedSlice S256x1024 ![256, 0] (m ((c : Thread nD τ).loc main_arg2))
          slices_S512x1024_S256x1024_256_0 : FVec Ideal S256x1024 .f32) bitsLt_bf16_f32 := by
    dsimp only [Gen.V, Gen.hostOps0]; after_results
  rw [e, truncf_apply]
  refine extractStridedSlice_apply ![256, 0] _ _ (ix2 h v) (ix2 (decRow h) v) fun a => ?_
  match a with
  | ⟨0, _⟩ => show 256 + h.val = 256 + h.val; rfl
  | ⟨1, _⟩ => show v.val = 0 + v.val; omega

/-- The bias viewed as one row: at `(0, v)` it is the bias at `v`. -/
theorem bias_apply (v : Fin 1024) :
    (V m c main_v4 : S1x1024.Idx → EReal) (ix2 (0 : Fin 1) v) = m ((c : Thread nD τ).loc main_arg3) (ix1 v) := by
  have e : (V m c main_v4 : S1x1024.Idx → EReal)
      = shapeCast S1x1024 (m ((c : Thread nD τ).loc main_arg3)) shapeCasts_S1024_S1x1024 := by
    dsimp only [Gen.V, Gen.hostOps0]; after_results; rfl
  rw [e]
  refine shapeCast_apply _ _ (ix2 (0 : Fin 1) v) (ix1 v) ?_
  rw [Shape.rowMajor_val_two, Shape.rowMajor_val_one]
  show v.val = 0 * 1024 + v.val
  omega

/-! ## The five input blocks at a grid point -/

/-- The encoder block at `t`: row `p` is encoder step `32 · (t % 8) + p` of batch `t / 8`. -/
theorem iblk0_apply (t : Fin cfg0.N) (p : Fin 32) (h : Fin 256) :
    iblk m c 0 t (ix3 (0 : Fin 1) p h) = m ((c : Thread nD τ).loc main_arg0) (ix3 (batchOf t) (stepOf t p) h) := by
  unfold iblk
  rw [View.read_apply]
  show V m c main_arg0 (((cfg0.win 0).blk t).view.emb (ix3 (0 : Fin 1) p h)) = _
  rw [emb0, V_main_arg0]

/-- The decoder block at `t`: all 64 decoder steps of batch `t / 8`. -/
theorem iblk1_apply (t : Fin cfg0.N) (u : Fin 64) (h : Fin 256) :
    iblk m c 1 t (ix3 (0 : Fin 1) u h) = m ((c : Thread nD τ).loc main_arg1) (ix3 (batchOf t) u h) := by
  unfold iblk
  rw [View.read_apply]
  show V m c main_arg1 (((cfg0.win 1).blk t).view.emb (ix3 (0 : Fin 1) u h)) = _
  rw [emb1, V_main_arg1]

/-- The encoder weights' block, at every point: rows 0..255 of `W`. -/
theorem iblk2_apply (t : Fin cfg0.N) (h : Fin 256) (v : Fin 1024) :
    iblk m c 2 t (ix2 h v) = m ((c : Thread nD τ).loc main_arg2) (ix2 (encRow h) v) := by
  unfold iblk
  rw [View.read_apply]
  show (V m c main_v1 : S256x1024.Idx → EReal) (((cfg0.win 2).blk t).view.emb (ix2 h v)) = _
  rw [emb2, encW_apply]

/-- The decoder weights' block, at every point: rows 256..511 of `W`. -/
theorem iblk3_apply (t : Fin cfg0.N) (h : Fin 256) (v : Fin 1024) :
    iblk m c 3 t (ix2 h v) = m ((c : Thread nD τ).loc main_arg2) (ix2 (decRow h) v) := by
  unfold iblk
  rw [View.read_apply]
  show (V m c main_v3 : S256x1024.Idx → EReal) (((cfg0.win 3).blk t).view.emb (ix2 h v)) = _
  rw [emb3, decW_apply]

/-- The bias block, at every point: the bias. -/
theorem iblk4_apply (t : Fin cfg0.N) (v : Fin 1024) :
    iblk m c 4 t (ix2 (0 : Fin 1) v) = m ((c : Thread nD τ).loc main_arg3) (ix1 v) := by
  unfold iblk
  rw [View.read_apply]
  show (V m c main_v4 : S1x1024.Idx → EReal) (((cfg0.win 4).blk t).view.emb (ix2 (0 : Fin 1) v)) = _
  rw [emb4, bias_apply]

end Cert.Joint.Blocks
end
-- ==== Proof.Scratch.lean ====
/-
  The scratch of decoder projections, point by point.

  The grid runs through the eight encoder tiles of batch 0, then of batch 1, and so on. The first tile of a batch stores
  into the scratch the projection of the batch's decoder block against the decoder half of `W`; the other seven tiles
  leave it alone. So after ANY point the scratch holds the decoder projection of that point's batch — by induction on
  the point, the step inside a batch using that a point and the one before it share their batch.
-/
import proofs.«103141_j62775241999026_2_alg».proof.Proof.Point
import proofs.«103141_j62775241999026_2_alg».proof.Proof.Blocks

noncomputable section

namespace Cert.Joint.Scratch

open Cert.KernelIdeal Cert.KernelIdeal.Gen Idealize.ShloMosaic Idealize.ShloMosaic.TcCoe Idealize.ShloMosaic.ValueIdx
open Idealize.SL.Sem Cert.Joint Cert.Joint.Blocks Cert.Joint.Point

variable (m : (ℓ : Loc nD τ sig) → Buf (Elt Ideal) ℓ) (c : Dev nD)

/-- What the first tile of a batch stores: the decoder projection of the batch, entry by entry. -/
theorem reset_apply (t : Fin cfg0.N) (u : Fin 64) (v : Fin 1024) :
    k0_pay1 (F := Ideal) (iblk m c 1 t) (iblk m c 2 t) (iblk m c 3 t) (ix2 u v)
      = decProj (m ((c : Thread nD τ).loc main_arg1)) (m ((c : Thread nD τ).loc main_arg2)) (batchOf t) u v := by
  rw [Payload.pay1_apply]
  unfold decProj
  exact Finset.sum_congr rfl fun h _ => by rw [iblk1_apply, iblk3_apply]

/-- Two consecutive points inside a batch have the same batch. -/
theorem batchOf_pred (n : ℕ) (h : n + 1 < cfg0.N) (h0 : ¬(n + 1) % 8 = 0) :
    batchOf ⟨n, Nat.lt_of_succ_lt h⟩ = batchOf ⟨n + 1, h⟩ :=
  Fin.ext (by show n / 8 = (n + 1) / 8; omega)

/-- After point `n` the scratch holds the decoder projection of the batch of `n`. -/
theorem scratch_eq : ∀ (n : ℕ) (h : n < cfg0.N) (u : Fin 64) (v : Fin 1024),
    (outsAt0 m c n h).2 (ix2 u v)
      = decProj (m ((c : Thread nD τ).loc main_arg1)) (m ((c : Thread nD τ).loc main_arg2)) (batchOf ⟨n, h⟩) u v
  | 0, h, u, v => by
    rw [outsAt0_A m c ⟨0, h⟩ rfl]
    dsimp only
    rw [sout_A_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)]
    exact reset_apply m c ⟨0, h⟩ u v
  | n + 1, h, u, v => by
    by_cases h0 : (n + 1) % 8 = 0
    · rw [outsAt0_A m c ⟨n + 1, h⟩ h0]
      dsimp only
      rw [sout_A_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)]
      exact reset_apply m c ⟨n + 1, h⟩ u v
    · rw [outsAt0_B m c ⟨n + 1, h⟩ h0]
      dsimp only
      unfold sout0_B_0
      rw [← batchOf_pred n h h0]
      exact scratch_eq n (Nat.lt_of_succ_lt h) u v

end Cert.Joint.Scratch

end
-- ==== Proof.Cover.lean ====
/-
  The geometry of the output window: the output array `[8, 256, 64, 1024]` is cut into 64 blocks `[1, 32, 64, 1024]`, the
  block of grid point `t` at block index `(t / 8, t % 8, 0, 0)` — batch `t / 8`, encoder steps `32 · (t % 8) .. + 31`, every
  decoder step and vocabulary entry. An element of a block sits at the block's start plus its own coordinates, and the 64
  blocks, each written back by its point, cover the array.
-/
import proofs.«103141_j62775241999026_2_alg».proof.Proof.Blocks
import proofs.«103141_j62775241999026_2_alg».proof.Proof.Gen.KernelIdeal.Points

noncomputable section

namespace Cert.Joint.Cover

open Cert.KernelIdeal Cert.KernelIdeal.Gen Idealize.ShloMosaic Idealize.ShloMosaic.TcCoe Idealize.ShloMosaic.ValueIdx
  Idealize.SL.Sem Cert.Joint

/-- The batch of a grid point, as a number. -/
theorem batchOf_val (t : Fin cfg0.N) : (Blocks.batchOf t).val = t.val / 8 := rfl
/-- The encoder step of row `p` of a grid point's tile, as a number. -/
theorem stepOf_val (t : Fin cfg0.N) (p : Fin 32) : (Blocks.stepOf t p).val = 32 * (t.val % 8) + p.val := rfl

/-- The output window's block index at point `t` is `(t / 8, t % 8, 0, 0)`: decided once over the 64 points. -/
theorem index5 : ∀ t : Fin cfg0.N, win0_5.index t (0 : Fin 4) = t.val / 8 ∧ win0_5.index t 1 = t.val % 8
    ∧ win0_5.index t 2 = 0 ∧ win0_5.index t 3 = 0 :=
  (by decide +kernel : ∀ t : Fin grid0.N, win0_5.index t (0 : Fin 4) = t.val / 8 ∧ win0_5.index t 1 = t.val % 8
    ∧ win0_5.index t 2 = 0 ∧ win0_5.index t 3 = 0)

/-- An element `(0, p, u, v)` of the block at point `t` sits in the array at `(t / 8, 32 · (t % 8) + p, u, v)`: the block
    starts at its block index times the block's extents `[1, 32, 64, 1024]`. -/
theorem emb5 (t : Fin cfg0.N) (p : Fin 32) (u : Fin 64) (v : Fin 1024) :
    ((cfg0.win 5).blk t).view.emb (ix4 (0 : Fin 1) p u v) = ix4 (Blocks.batchOf t) (Blocks.stepOf t p) u v := by
  funext a; apply Fin.ext
  match a with
  | ⟨0, _⟩ => show win0_5.index t 0 * 1 + 1 * 0 = t.val / 8; rw [(index5 t).1]; omega
  | ⟨1, _⟩ => show win0_5.index t 1 * 32 + 1 * p.val = 32 * (t.val % 8) + p.val; rw [(index5 t).2.1]; omega
  | ⟨2, _⟩ => show win0_5.index t 2 * 64 + 1 * u.val = u.val; rw [(index5 t).2.2.1]; omega
  | ⟨3, _⟩ => show win0_5.index t 3 * 1024 + 1 * v.val = v.val; rw [(index5 t).2.2.2]; omega

/-- The block of point `t` holds every index of batch `t / 8` whose encoder step lies in tile `t % 8`: on each axis the
    index is at least the block's start and below the start plus the block's extent. -/
theorem mem_blk5 (t : Fin cfg0.N) (i : S8x256x64x1024.Idx) (hb : (i 0).val = t.val / 8) (hs : (i 1).val / 32 = t.val % 8) :
    i ∈ ((cfg0.win 5).blk t).view.set := by
  have h2 : (i 2).val < 64 := (i 2).isLt
  have h3 : (i 3).val < 1024 := (i 3).isLt
  show i ∈ ((View.whole main_v5).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(index5 t).1]; omega
  | ⟨1, _⟩ =>
    show win0_5.index t 1 * 32 ≤ (i 1).val ∧ (i 1).val < win0_5.index t 1 * 32 + 32
    rw [(index5 t).2.1]; omega
  | ⟨2, _⟩ =>
    show win0_5.index t 2 * 64 ≤ (i 2).val ∧ (i 2).val < win0_5.index t 2 * 64 + 64
    rw [(index5 t).2.2.1]; omega
  | ⟨3, _⟩ =>
    show win0_5.index t 3 * 1024 ≤ (i 3).val ∧ (i 3).val < win0_5.index t 3 * 1024 + 1024
    rw [(index5 t).2.2.2]; omega

/-- Every index `(b, s, u, v)` of the output array lies in the block of the point `8 · b + ⌊s / 32⌋`, and every point
    writes its block back: the 64 blocks cover the array. -/
theorem cover5 (i : S8x256x64x1024.Idx) :
    ∃ t : Fin cfg0.N, (cfg0.win 5).flush t = true ∧ i ∈ ((cfg0.win 5).blk t).view.set := by
  have h0 : (i 0).val < 8 := (i 0).isLt
  have h1 : (i 1).val < 256 := (i 1).isLt
  have hN : cfg0.N = 64 := N_0
  exact ⟨⟨8 * (i 0).val + (i 1).val / 32, by omega⟩, flush0_5 _, mem_blk5 _ i (by show (i 0).val = (8 * (i 0).val + (i 1).val / 32) / 8; omega)
    (by show (i 1).val / 32 = (8 * (i 0).val + (i 1).val / 32) % 8; omega)⟩

end Cert.Joint.Cover
end
-- ==== Proof.Flushed.lean ====
/-
  What each grid point writes back is its block of the specification.

  Point `t` works on batch `t / 8` and on the encoder steps `32·(t % 8) .. 32·(t % 8) + 31`. Its output block is the
  block function `blk` of its encoder tile, `W₁`, the bias and the scratch; the tile, `W₁` and the bias are read off
  the argument arrays, and the scratch holds the decoder projection of the batch (stored by this very point if it begins
  the batch, left by the point before otherwise). So entry `(0, p, u, v)` of the block is the log-softmax of the logits
  of (batch, step, u), at `v`: the specification `G` at the place of the output array the entry is written back to.
-/
import proofs.«103141_j62775241999026_2_alg».proof.Proof.Scratch
import proofs.«103141_j62775241999026_2_alg».proof.Proof.Cover
import proofs.«103141_j62775241999026_2_alg».proof.Proof.Gen.KernelIdeal.Value

noncomputable section

namespace Cert.Joint.Kernel

open Cert.KernelIdeal Cert.KernelIdeal.Gen Idealize.ShloMosaic Idealize.ShloMosaic.TcCoe Idealize.ShloMosaic.ValueIdx
open Idealize.SL.Sem Cert.Joint Cert.Joint.Blocks Cert.Joint.Block Cert.Joint.Point Cert.Joint.Scratch
open Idealize.ShloMosaic.Pipeline (Dat)

variable (m : (ℓ : Loc nD τ sig) → Buf (Elt Ideal) ℓ) (c : Dev nD)

/-- The output array the kernel ends with: the specification of the four argument arrays. -/
def result : Buf (Elt Ideal) ((c : Thread nD τ).loc main_v5) :=
  G (m ((c : Thread nD τ).loc main_arg0)) (m ((c : Thread nD τ).loc main_arg1)) (m ((c : Thread nD τ).loc main_arg2)) (m ((c : Thread nD τ).loc main_arg3))

/-- The block function at a point, over a scratch holding the decoder projection of the point's batch, is the
    specification at the place of the array the block is written back to. -/
theorem blk_eq_G (t : Fin cfg0.N) (S : Vec Ideal S64x1024 .f32)
    (hS : ∀ (u : Fin 64) (v : Fin 1024), S (ix2 u v) = decProj (m ((c : Thread nD τ).loc main_arg1)) (m ((c : Thread nD τ).loc main_arg2)) (batchOf t) u v)
    (p : Fin 32) (u : Fin 64) (v : Fin 1024) :
    blk (iblk m c 0 t) (iblk m c 2 t) (iblk m c 4 t) S (ix4 (0 : Fin 1) p u v)
      = G (m ((c : Thread nD τ).loc main_arg0)) (m ((c : Thread nD τ).loc main_arg1)) (m ((c : Thread nD τ).loc main_arg2)) (m ((c : Thread nD τ).loc main_arg3)) (ix4 (batchOf t) (stepOf t p) u v) := by
  rw [blk_ix4, G_ix4]
  unfold blkAt outAt logit encProj
  refine congrArg (logSoftmaxRow · v) (funext fun v' => ?_)
  rw [hS, iblk4_apply]
  refine congrArg (fun z => (z + decProj (m ((c : Thread nD τ).loc main_arg1)) (m ((c : Thread nD τ).loc main_arg2)) (batchOf t) u v') + (m ((c : Thread nD τ).loc main_arg3)) (ix1 v')) ?_
  exact Finset.sum_congr rfl fun h _ => by rw [iblk0_apply, iblk2_apply]

/-- A point inside a batch and the point before it have the same batch. -/
theorem batchOf_sub_one (t : Fin cfg0.N) (h0 : ¬t.val % 8 = 0) :
    batchOf ⟨t.val - 1, Nat.lt_of_le_of_lt (Nat.sub_le _ _) t.isLt⟩ = batchOf t :=
  Fin.ext (by show (t.val - 1) / 8 = t.val / 8; omega)

/-- WHAT POINT `t` WRITES BACK is its block of the specification. -/
theorem flushed_eq (t : Fin cfg0.N) :
    (dats m 0 c).flushed 5 t = ((cfg0.win 5).blk t).view.read (Elt Ideal) (result m c) := by
  funext y
  obtain ⟨a, p, u, v, rfl⟩ : ∃ (a : Fin 1) (p : Fin 32) (u : Fin 64) (v : Fin 1024), y = ix4 a p u v :=
    ⟨y 0, y 1, y 2, y 3, eq_ix4 (n0 := 1) (n1 := 32) (n2 := 64) (n3 := 1024) y⟩
  obtain rfl : a = 0 := Subsingleton.elim _ _
  rw [View.read_apply, Cover.emb5]
  show _ = G (m ((c : Thread nD τ).loc main_arg0)) (m ((c : Thread nD τ).loc main_arg1)) (m ((c : Thread nD τ).loc main_arg2)) (m ((c : Thread nD τ).loc main_arg3)) (ix4 (batchOf t) (stepOf t p) u v)
  by_cases h0 : t.val % 8 = 0
  · rw [Value.flushed5_A m c t h0,
      out_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)]
    exact blk_eq_G m c t _ (reset_apply m c t) p u v
  · rw [Value.flushed5_B m c t h0,
      out_B_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)]
    refine blk_eq_G m c t _ (fun u v => ?_) p u v
    rw [← batchOf_sub_one t h0]
    exact scratch_eq m c (t.val - 1) _ u v

end Cert.Joint.Kernel

end
-- ==== Proof.KernelRun.lean ====
/-
  The kernel's run, read: its result array is the specification of its argument arrays.

  Every point of the 8 × 8 grid writes its block back, the 64 blocks tile the output array [8, 256, 64, 1024], and each
  block written is that block of the specification; so after the run the whole array is the specification.
-/
import proofs.«103141_j62775241999026_2_alg».proof.Proof.Flushed

noncomputable section

namespace Cert.Joint.Kernel

open Cert.KernelIdeal Cert.KernelIdeal.Gen Idealize.ShloMosaic Idealize.ShloMosaic.TcCoe Idealize.SL.Sem Cert.Joint
open Idealize.ShloMosaic.Pipeline (Dat)

variable (m : (ℓ : Loc nD τ sig) → Buf (Elt Ideal) ℓ) (ρ : Dev nD → PrngReg)

/-- After the last write-back the output array is the specification. -/
theorem final (c : Dev nD) : (dats m 0 c).arrAt 5 cfg0.N = result m c :=
  (dats m 0 c).arrAt_eq_of_cover 5 (result m c) (fun t _ => flushed_eq m c t) Cover.cover5

/-- Every weakly fair execution of the idealized kernel terminates with its result array at the specification of its
    arguments, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Joint.Kernel

end
-- ==== Proof.RefIsG.lean ====
/-
  The reference program computes the specification.

  Read at the index (b, t, u, v), the reference's stages are: the two slices of the weight matrix are its encoder
  rows 0..255 and its decoder rows 256..511; the two contractions are the encoder and the decoder projection;
  the broadcasts copy them along the decoder-step and the encoder-step axis; the two additions give the logit.
  The log-softmax stages then fold the maximum of the row of 1024 logits from −∞, take the maximum with −∞ once
  more (which changes nothing), subtract it, exponentiate, sum the row from 0, take the logarithm and subtract.
  That is `Cert.Joint.G`. No finiteness of the inputs is used.
-/
import proofs.«103141_j62775241999026_2_alg».proof.Proof.ReadP
import proofs.«103141_j62775241999026_2_alg».proof.Proof.Spec

noncomputable section

namespace Cert.Joint.RefIsG

open Cert.ReferenceIdeal Cert.ReferenceIdeal.Gen Cert.ReferenceIdeal.ReadP Idealize.ShloMosaic Idealize.ShloMosaic.ValueIdx

variable (x0 : (⟨S8x256x256, .f32⟩ : BufTy).Contents (Elt Ideal)) (x1 : (⟨S8x64x256, .f32⟩ : BufTy).Contents (Elt Ideal))
  (x2 : (⟨S512x1024, .f32⟩ : BufTy).Contents (Elt Ideal)) (x3 : (⟨S1024, .f32⟩ : BufTy).Contents (Elt Ideal))

/-! ## The logits -/

/-- The first slice of the weight matrix is its encoder half: row `h` of the slice is row `h` of `W`. -/
theorem encSlice_at (h : Fin 256) (v : Fin 1024) :
    val_main_v0 (F := Ideal) x2 (ix2 h v) = x2 (ix2 (encRow h) v) := by
  rw [val_main_v0_apply]
  exact congrArg x2 (funext fun a => Fin.ext (by match a with | ⟨0, _⟩ => rfl | ⟨1, _⟩ => rfl))

/-- The second slice of the weight matrix is its decoder half: row `h` of the slice is row `256 + h` of `W`. -/
theorem decSlice_at (h : Fin 256) (v : Fin 1024) :
    val_main_v2 (F := Ideal) x2 (ix2 h v) = x2 (ix2 (decRow h) v) := by
  rw [val_main_v2_apply]
  exact congrArg x2 (funext fun a => Fin.ext (by match a with | ⟨0, _⟩ => rfl | ⟨1, _⟩ => rfl))

/-- The first contraction is the encoder projection. -/
theorem encDot_at (b : Fin 8) (t : Fin 256) (v : Fin 1024) :
    val_main_v1 (F := Ideal) x0 x2 (ix3 b t v) = encProj x0 x2 b t v := by
  rw [val_main_v1_apply]
  unfold encProj
  refine Finset.sum_congr rfl fun k _ => ?_
  have el : lidx_main_v1 (ix3 b t v) k = ix3 b t k :=
    funext fun a => Fin.ext (by match a with | ⟨0, _⟩ => rfl | ⟨1, _⟩ => rfl | ⟨2, _⟩ => rfl)
  have er : ridx_main_v1 (ix3 b t v) k = ix2 k v :=
    funext fun a => Fin.ext (by match a with | ⟨0, _⟩ => rfl | ⟨1, _⟩ => rfl)
  rw [el, er, encSlice_at]

/-- The second contraction is the decoder projection. -/
theorem decDot_at (b : Fin 8) (u : Fin 64) (v : Fin 1024) :
    val_main_v3 (F := Ideal) x1 x2 (ix3 b u v) = decProj x1 x2 b u v := by
  rw [val_main_v3_apply]
  unfold decProj
  refine Finset.sum_congr rfl fun k _ => ?_
  have el : lidx_main_v3 (ix3 b u v) k = ix3 b u k :=
    funext fun a => Fin.ext (by match a with | ⟨0, _⟩ => rfl | ⟨1, _⟩ => rfl | ⟨2, _⟩ => rfl)
  have er : ridx_main_v3 (ix3 b u v) k = ix2 k v :=
    funext fun a => Fin.ext (by match a with | ⟨0, _⟩ => rfl | ⟨1, _⟩ => rfl)
  rw [el, er, decSlice_at]

/-- The encoder projection broadcast along the decoder steps. -/
theorem encBcast_at (b : Fin 8) (t : Fin 256) (u : Fin 64) (v : Fin 1024) :
    val_main_v6 (F := Ideal) x0 x2 (ix4 b t u v) = encProj x0 x2 b t v := by
  rw [val_main_v6_apply, val_main_v4_apply]
  have e : idx_main_v4 (idx_main_v6 (ix4 b t u v)) = ix3 b t v :=
    funext fun a => Fin.ext (by match a with | ⟨0, _⟩ => rfl | ⟨1, _⟩ => rfl | ⟨2, _⟩ => rfl)
  rw [e, encDot_at]

/-- The decoder projection broadcast along the encoder steps. -/
theorem decBcast_at (b : Fin 8) (t : Fin 256) (u : Fin 64) (v : Fin 1024) :
    val_main_v7 (F := Ideal) x1 x2 (ix4 b t u v) = decProj x1 x2 b u v := by
  rw [val_main_v7_apply, val_main_v5_apply]
  have e : idx_main_v5 (idx_main_v7 (ix4 b t u v)) = ix3 b u v :=
    funext fun a => Fin.ext (by match a with | ⟨0, _⟩ => rfl | ⟨1, _⟩ => rfl | ⟨2, _⟩ => rfl)
  rw [e, decDot_at]

/-- The bias broadcast over batch and both step axes. -/
theorem biasBcast_at (b : Fin 8) (t : Fin 256) (u : Fin 64) (v : Fin 1024) :
    val_main_v10 (F := Ideal) x3 (ix4 b t u v) = x3 (ix1 v) := by
  rw [val_main_v10_apply, val_main_v9_apply]
  exact congrArg x3 (funext fun a => Fin.ext (by match a with | ⟨0, _⟩ => rfl))

/-- The two additions give the logit. -/
theorem logits_at (b : Fin 8) (t : Fin 256) (u : Fin 64) (v : Fin 1024) :
    val_main_v11 (F := Ideal) x0 x1 x2 x3 (ix4 b t u v) = logit x0 x1 x2 x3 b t u v := by
  rw [val_main_v11_apply, val_main_v8_apply, encBcast_at, decBcast_at, biasBcast_at]
  rfl

/-! ## The row maximum -/

/-- The shape [8, 256, 64] is [8, 256, 64, 1024] with its last axis removed. -/
theorem reduces_last : S8x256x64x1024.Reduces [3] S8x256x64 := by decide

/-- The reduced index (b, t, u) with the coordinate `k` put back on the last axis is (b, t, u, k). -/
theorem lift_ix4 (b : Fin 8) (t : Fin 256) (u : Fin 64) (k : Fin (S8x256x64x1024.size 3)) :
    reduces_last.lift (ix3 b t u) k = ix4 b t u (⟨k.val, k.isLt⟩ : Fin 1024) := by
  funext c; apply Fin.ext
  match c with
  | ⟨0, _⟩ => rfl
  | ⟨1, _⟩ => rfl
  | ⟨2, _⟩ => rfl
  | ⟨3, _⟩ => rfl

/-- The reduce with a maximum body along the last axis, from −∞, is at (b, t, u) the maximum of the row of logits. -/
theorem rowMax_at (b : Fin 8) (t : Fin 256) (u : Fin 64) :
    val_main_call0_v0 (F := Ideal) x0 x1 x2 x3 (ix3 b t u) = rowMax (fun k => logit x0 x1 x2 x3 b t u k) := by
  have hl : ∀ v : Fin 1024, val_main_v11 (F := Ideal) x0 x1 x2 x3 (ix4 b t u v) = logit x0 x1 x2 x3 b t u v :=
    fun v => logits_at x0 x1 x2 x3 b t u v
  unfold val_main_call0_v0
  generalize val_main_v11 (F := Ideal) x0 x1 x2 x3 = y at hl ⊢
  have h1 := Host.reduce_eq_fold_single (FloatOps.maximumf (F := Ideal) (φ := .f32)) y (val_main_call0_cst (F := Ideal))
    reducesTo_S8x256x64x1024_S8x256x64_d3 reduces_last h_S_ (ix3 b t u)
  refine h1.trans ?_
  have hf : (y ∘ reduces_last.lift (ix3 b t u)) = fun k : Fin 1024 => logit x0 x1 x2 x3 b t u k :=
    funext fun k => (congrArg y (lift_ix4 b t u k)).trans (hl _)
  unfold rowMax
  exact congrArg (fun f => Finset.fold max negInf f (Finset.univ : Finset (Fin 1024))) hf

/-- Taking the maximum with −∞ once more leaves the row maximum as it is. -/
theorem rowMaxAgain_at (b : Fin 8) (t : Fin 256) (u : Fin 64) :
    val_main_call0_v2 (F := Ideal) x0 x1 x2 x3 (ix3 b t u) = rowMax (fun k => logit x0 x1 x2 x3 b t u k) := by
  rw [val_main_call0_v2_apply, val_main_call0_v1_apply, val_main_call0_cst_0_apply, rowMax_at]
  exact max_negInf_rowMax _

/-! ## The shifted row, its exponential sum, the result -/

/-- The logit minus its row's maximum. -/
theorem shifted_at (b : Fin 8) (t : Fin 256) (u : Fin 64) (v : Fin 1024) :
    val_main_call0_v5 (F := Ideal) x0 x1 x2 x3 (ix4 b t u v)
      = logit x0 x1 x2 x3 b t u v - rowMax (fun k => logit x0 x1 x2 x3 b t u k) := by
  rw [val_main_call0_v5_apply, logits_at, val_main_call0_v4_apply, val_main_call0_v3_apply]
  have e : idx_main_call0_v3 (idx_main_call0_v4 (ix4 b t u v)) = ix3 b t u :=
    funext fun a => Fin.ext (by match a with | ⟨0, _⟩ => rfl | ⟨1, _⟩ => rfl | ⟨2, _⟩ => rfl)
  rw [e, rowMaxAgain_at]
  rfl

/-- The sum, from 0, of the exponentials of the shifted row. -/
theorem expSum_at (b : Fin 8) (t : Fin 256) (u : Fin 64) :
    val_main_call0_v7 (F := Ideal) x0 x1 x2 x3 (ix3 b t u)
      = ∑ k : Fin 1024, Ideal.exp (logit x0 x1 x2 x3 b t u k - rowMax (fun k' => logit x0 x1 x2 x3 b t u k')) := by
  rw [val_main_call0_v7_apply, val_main_call0_cst_1_apply, Ideal.ofBits_def, Ideal.ofBits_zero_f32, zero_add]
  refine Finset.sum_congr rfl fun k _ => ?_
  have e : idx_main_call0_v7 (ix3 b t u) k = ix4 b t u k :=
    funext fun a => Fin.ext (by match a with | ⟨0, _⟩ => rfl | ⟨1, _⟩ => rfl | ⟨2, _⟩ => rfl | ⟨3, _⟩ => rfl)
  rw [e, val_main_call0_v6_apply, shifted_at]
  rfl

/-- The reference's result is the specification. -/
theorem ref_eq_G :
    val_main_v12 (F := Ideal) x0 x1 x2 x3 = G x0 x1 x2 x3 := by
  funext i
  obtain ⟨b, t, u, v, rfl⟩ : ∃ (b : Fin 8) (t : Fin 256) (u : Fin 64) (v : Fin 1024), i = ix4 b t u v :=
    ⟨i 0, i 1, i 2, i 3, eq_ix4 i⟩
  rw [G_ix4, val_main_v12_apply, shifted_at, val_main_call0_v10_apply, val_main_call0_v9_apply, val_main_call0_v8_apply]
  have e : idx_main_call0_v8 (idx_main_call0_v10 (ix4 b t u v)) = ix3 b t u :=
    funext fun a => Fin.ext (by match a with | ⟨0, _⟩ => rfl | ⟨1, _⟩ => rfl | ⟨2, _⟩ => rfl)
  rw [e, expSum_at]
  rfl

end Cert.Joint.RefIsG

end
-- ==== Proof.lean ====
/-
  The certificate of the joint network kernel against its reference.

  Both programs compute, for a batch `b`, an encoder step `t`, a decoder step `u` and a vocabulary entry `v`,

      out[b,t,u,v] = log_softmaxᵥ ( enc[b,t,:] · W[0:256, v] + dec[b,u,:] · W[256:512, v] + bias[v] ).

  The kernel tiles the encoder steps by 32 over an 8 × 8 grid, keeps the decoder projection of the current batch in a
  scratch that the first tile of each batch refills (against `W₁ · 0 + W₂`, which is `W₂` on the extended reals), and
  takes the log-softmax sixteen decoder steps at a time; the reference forms the whole [8, 256, 64, 1024] array of
  logits and applies jax's log_softmax, whose extra maximum with −∞ changes nothing. On the extended reals the two
  results are the same function `Cert.Joint.G` of the four argument arrays, entry by entry: the kernel's by reading
  what each grid point writes back (Proof/KernelRun.lean and what it imports), the reference's by reading its host
  operations one at a time (Proof/RefIsG.lean). No finiteness of the inputs is used: every law involved
  (`x · 0 = 0`, `0 + x = x`, `max ⊥ x = x`, the same sums over the same index sets) holds on all extended reals.
  The ideal pass rewrote nothing, so `preserves` is trivial; the two kernels' frames are the generated ones and the
  reference's frame is its run with the result forgotten.
-/
import proofs.«103141_j62775241999026_2_alg».proof.Defs
import proofs.«103141_j62775241999026_2_alg».proof.Proof.Gen.Kernel
import proofs.«103141_j62775241999026_2_alg».proof.Proof.Gen.Kernel.Skeleton
import proofs.«103141_j62775241999026_2_alg».proof.Proof.Gen.Kernel.Loops
import proofs.«103141_j62775241999026_2_alg».proof.Proof.Gen.Kernel.Launch
import proofs.«103141_j62775241999026_2_alg».proof.Proof.Gen.Kernel.Points
import proofs.«103141_j62775241999026_2_alg».proof.Proof.Gen.Kernel.Frame
import proofs.«103141_j62775241999026_2_alg».proof.Proof.Gen.KernelIdeal
import proofs.«103141_j62775241999026_2_alg».proof.Proof.Gen.KernelIdeal.Skeleton
import proofs.«103141_j62775241999026_2_alg».proof.Proof.Gen.KernelIdeal.Loops
import proofs.«103141_j62775241999026_2_alg».proof.Proof.Gen.KernelIdeal.Launch
import proofs.«103141_j62775241999026_2_alg».proof.Proof.Gen.KernelIdeal.Points
import proofs.«103141_j62775241999026_2_alg».proof.Proof.Gen.KernelIdeal.Frame
import proofs.«103141_j62775241999026_2_alg».proof.Proof.Gen.KernelIdeal.Value
import proofs.«103141_j62775241999026_2_alg».proof.Proof.Gen.ReferenceIdeal
import proofs.«103141_j62775241999026_2_alg».proof.Proof.Gen.Pre_finite_inputs
import proofs.«103141_j62775241999026_2_alg».proof.Proof.KernelRun
import proofs.«103141_j62775241999026_2_alg».proof.Proof.RefRun
import proofs.«103141_j62775241999026_2_alg».proof.Proof.RefIsG
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories that agree on the arguments both idealized programs end with the specification `G` of those arguments
    in their result arrays: the kernel by its run read block by block, the reference by its run read operation by
    operation. -/
theorem algebraic : Cert.algebraic_KernelIdeal_ReferenceIdeal := by
  intro m ρ m' ρ' _ hagree
  refine ⟨fun c => Cert.Joint.Kernel.result m c, Cert.Joint.Kernel.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.Joint.RefIsG.ref_eq_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
